-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x1024 : Shape := ⟨3, ![16, 2048, 1024]⟩
abbrev S_ : Shape := ⟨0, ![]⟩

class Facts : Prop where
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel

variable [Facts]

def fn {F : FTy → Type} [FloatOps F] (main_arg0 : FVec F S16x2048x1024 .f32) (main_arg1 : FVec F S16x2048x1024 .f32) : IVec S_ 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_c : IVec S_ 1 := constantI S_ 1 1#1
  let main_v3 : IVec S_ 1 := (fun x v => Host.reduce IntOp.andi x v reducesTo_S16x2048x1024_S_d0_1_2 h_S_) main_v2 main_c
  let main_v4 : FVec F S16x2048x1024 .f32 := Host.absf main_arg1
  let main_cst_0 : FVec F S_ .f32 := constant S_ .f32 0x7F800000#32
  let main_v5 : FVec F S16x2048x1024 .f32 := broadcastInDim S16x2048x1024 ![] bcast_S_S16x2048x1024 main_cst_0
  let main_v6 : IVec S16x2048x1024 1 := cmpf .olt main_v4 main_v5
  let main_c_1 : IVec S_ 1 := constantI S_ 1 1#1
  let main_v7 : IVec S_ 1 := (fun x v => Host.reduce IntOp.andi x v reducesTo_S16x2048x1024_S_d0_1_2 h_S_) main_v6 main_c_1
  let main_v8 : IVec S_ 1 := andi main_v3 main_v7
  main_v8
-- ==== Kernel.lean ====
abbrev S16x2048x1024 : Shape := ⟨3, ![16, 2048, 1024]⟩
abbrev S1x512x1024 : Shape := ⟨3, ![1, 512, 1024]⟩
abbrev S1x2048x1024 : Shape := ⟨3, ![1, 2048, 1024]⟩
abbrev S512x1024 : Shape := ⟨2, ![512, 1024]⟩
abbrev S2048x1024 : Shape := ⟨2, ![2048, 1024]⟩
abbrev S1024x2048 : Shape := ⟨2, ![1024, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 6
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S16x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x2048x1024, .f32⟩
  | .local _ .vmem, ⟨3, _⟩ => ⟨S1x2048x1024, .f32⟩
  | .local _ .vmem, ⟨4, _⟩ => ⟨S1x512x1024, .f32⟩
  | .local _ .vmem, ⟨5, _⟩ => ⟨S1x512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  transposes_S2048x1024_p1_0_S1024x2048 : S2048x1024.Transposes [1, 0] S1024x2048
  reduces_S512x2048_S512 : S512x2048.Reduces [1] S512
  shapeCasts_S512_S512x1 : S512.ShapeCasts S512x1
  broadcasts_S512x1_S512x2048 : S512x1.Broadcasts S512x2048
  bitsLt_bf16_f32 : FTy.bits .bf16 < FTy.bits .f32
  shapeCasts_S512x1024_S1x512x1024 : S512x1024.ShapeCasts S1x512x1024
  dot_S512x1024_S1024x2048_S512x2048_1_0_0_1_n_n_wf : DotDims.WF S512x1024 S1024x2048 S512x2048 [1] [0] [0] [1] [] []
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S16x2048x1024.size a
  hwx0_0 : ∀ i : grid0.Coords, EltTy.bits .f32 = 32 ∨ (Rect.block (s := S16x2048x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S16x2048x1024.size a
  hwx0_1 : ∀ i : grid0.Coords, EltTy.bits .f32 = 32 ∨ (Rect.block (s := S16x2048x1024) S1x2048x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S16x2048x1024.size a
  hwx0_2 : ∀ i : grid0.Coords, EltTy.bits .f32 = 32 ∨ (Rect.block (s := S16x2048x1024) S1x512x1024.size (cc0_transform_2 i) (hinb0_2 i)).WholeWords (EltTy.packing .f32)

variable [Facts₀]

def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x2048x1024 : Shape := ⟨3, ![16, 2048, 1024]⟩
abbrev S16x2048x2048 : Shape := ⟨3, ![16, 2048, 2048]⟩
abbrev S_ : Shape := ⟨0, ![]⟩
abbrev S16x2048 : Shape := ⟨2, ![16, 2048]⟩
abbrev S16x1x2048 : Shape := ⟨3, ![16, 1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S16x2048x2048, .f32⟩
  | .hbm, ⟨3, _⟩ => ⟨S_, .f32⟩
  | .hbm, ⟨4, _⟩ => ⟨S16x2048, .f32⟩
  | .hbm, ⟨5, _⟩ => ⟨S_, .f32⟩
  | .hbm, ⟨6, _⟩ => ⟨S16x2048, .f32⟩
  | .hbm, ⟨7, _⟩ => ⟨S16x2048, .f32⟩
  | .hbm, ⟨8, _⟩ => ⟨S16x1x2048, .f32⟩
  | .hbm, ⟨9, _⟩ => ⟨S16x2048x2048, .f32⟩
  | .hbm, ⟨10, _⟩ => ⟨S16x2048x2048, .f32⟩
  | .hbm, ⟨11, _⟩ => ⟨S16x2048x2048, .f32⟩
  | .hbm, ⟨12, _⟩ => ⟨S_, .f32⟩
  | .hbm, ⟨13, _⟩ => ⟨S16x2048, .f32⟩
  | .hbm, ⟨14, _⟩ => ⟨S16x1x2048, .f32⟩
  | .hbm, ⟨15, _⟩ => ⟨S16x2048x2048, .f32⟩
  | .hbm, ⟨16, _⟩ => ⟨S16x2048x2048, .f32⟩
  | .hbm, ⟨17, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S16x2048x2048_S16x2048_d1 : S16x2048x2048.ReducesTo [1] S16x2048
  h_S_ : 0 < S_.numel
  bcast_S_S16x2048 : S_.BroadcastsInDim S16x2048 (![] : Fin 0 → Fin S16x2048.rank)
  bcast_S16x2048_S16x1x2048_0_2 : S16x2048.BroadcastsInDim S16x1x2048 (![0, 2] : Fin 2 → Fin S16x1x2048.rank)
  bcast_S16x1x2048_S16x2048x2048_0_1_2 : S16x1x2048.BroadcastsInDim S16x2048x2048 (![0, 1, 2] : Fin 3 → Fin S16x2048x2048.rank)
  dot_S16x2048x1024_S16x2048x1024_S16x2048x2048_2_2_1_1_0_0_wf : DotDims.WF S16x2048x1024 S16x2048x1024 S16x2048x2048 [2] [2] [1] [1] [0] [0]
  dot_S16x2048x2048_S16x2048x1024_S16x2048x1024_1_1_2_2_0_0_wf : DotDims.WF S16x2048x2048 S16x2048x1024 S16x2048x1024 [1] [1] [2] [2] [0] [0]

variable [Facts₀]

def dot_S16x2048x1024_S16x2048x1024_S16x2048x2048_2_2_1_1_0_0 : DotDims S16x2048x1024 S16x2048x1024 S16x2048x2048 where
  lhsContracting := [2]
  rhsContracting := [2]
  lhsNonContracting := [1]
  rhsNonContracting := [1]
  lhsBatch := [0]
  rhsBatch := [0]
  wf := dot_S16x2048x1024_S16x2048x1024_S16x2048x2048_2_2_1_1_0_0_wf
def dot_S16x2048x2048_S16x2048x1024_S16x2048x1024_1_1_2_2_0_0 : DotDims S16x2048x2048 S16x2048x1024 S16x2048x1024 where
  lhsContracting := [1]
  rhsContracting := [1]
  lhsNonContracting := [2]
  rhsNonContracting := [2]
  lhsBatch := [0]
  rhsBatch := [0]
  wf := dot_S16x2048x2048_S16x2048x1024_S16x2048x1024_1_1_2_2_0_0_wf

class Facts : Prop extends Facts₀ where

variable [Facts]
-- ==== Proof.RowAttend.lean ====
/-
  Dot-product attention of ONE query row over 2048 source rows of width 1024, on the extended reals, and the
  [16, 2048, 1024] array it gives when every query row of every batch attends over its own batch's source rows.

  For a query row `q` and source rows `E s`:
    score s   = ∑ k, E s k · q k
    top       = the maximum of the scores, taken from -∞
    e s       = exp (score s - top)
    weight s  = e s / ∑ s', e s'
    out h     = ∑ s, weight s · E s h
  Nothing here is simplified: both programs compute exactly this, in this order, so no law of the extended reals
  beyond commutativity of the product (in `score`) is ever needed, and no finiteness.
-/
import Idealize.ShloMosaic.PureOps.Ideal
import Idealize.ShloMosaic.Lib.ValueIdx

noncomputable section

namespace Cert.Attention

open Idealize.ShloMosaic Idealize.ShloMosaic.ValueIdx

/-- The value the running maximum starts from: what the f32 pattern `0xFF800000` denotes. It is never evaluated. -/
abbrev start : EReal := Ideal.ofBits .f32 0xFF800000#32

/-- The score of source row `s`: its dot product with the query row. -/
def rowScore (q : Fin 1024 → EReal) (E : Fin 2048 → Fin 1024 → EReal) (s : Fin 2048) : EReal :=
  ∑ k : Fin 1024, E s k * q k

/-- The largest score. -/
def rowTop (q : Fin 1024 → EReal) (E : Fin 2048 → Fin 1024 → EReal) : EReal :=
  (Finset.univ : Finset (Fin 2048)).fold max start (rowScore q E)

/-- The exponential of a score's distance below the largest. -/
def rowExp (q : Fin 1024 → EReal) (E : Fin 2048 → Fin 1024 → EReal) (s : Fin 2048) : EReal :=
  Ideal.exp (rowScore q E s - rowTop q E)

/-- The normalizer: the sum of those exponentials. -/
def rowNorm (q : Fin 1024 → EReal) (E : Fin 2048 → Fin 1024 → EReal) : EReal :=
  ∑ s : Fin 2048, rowExp q E s

/-- The attention weight of source row `s`. -/
def rowWeight (q : Fin 1024 → EReal) (E : Fin 2048 → Fin 1024 → EReal) (s : Fin 2048) : EReal :=
  Ideal.div (rowExp q E s) (rowNorm q E)

/-- The attended row: the source rows averaged with their weights. -/
def rowAttend (q : Fin 1024 → EReal) (E : Fin 2048 → Fin 1024 → EReal) (h : Fin 1024) : EReal :=
  ∑ s : Fin 2048, rowWeight q E s * E s h

/-- A [16, 2048, 1024] array of extended reals. -/
abbrev Arr : Type := (⟨3, ![16, 2048, 1024]⟩ : Shape).Idx → EReal

/-- The whole result: entry (b, t, h) is query row (b, t) of `hid` attending over batch `b`'s rows of `enc`. -/
def attend (hid enc : Arr) : Arr := fun i =>
  rowAttend (fun k => hid (ix3 (i 0 : Fin 16) (i 1 : Fin 2048) k)) (fun s k => enc (ix3 (i 0 : Fin 16) s k)) (i 2 : Fin 1024)

/-- `attend` at an index given by its coordinates. -/
theorem attend_apply (hid enc : Arr) (b : Fin 16) (t : Fin 2048) (h : Fin 1024) :
    attend hid enc (ix3 b t h) = rowAttend (fun k => hid (ix3 b t k)) (fun s k => enc (ix3 b s k)) h := rfl

end Cert.Attention

end
-- ==== Proof.LibKeepdims.lean ====
/-
  A row-wise reduction kept as a column (`keepdims=True`) and spread back over the row, read at an index.

  A matrix `v : [a, b]` reduced along its rows gives a vector `[a]`; the vector is re-laid as a column `[a, 1]` and
  the column is broadcast to `[a, b]`. At `(r, c)` the result is the reduction of row `r`, whatever `c`. This file has
  the two layout steps (`[a] → [a, 1]`, `[a, 1] → [a, b]`) at any element type, and, on the extended reals, the two
  reductions a softmax uses read at a row: the maximum as a fold of `max` over the row's entries and the sum as a `∑`.
-/
import Idealize.ShloMosaic.PureOps.Ideal.Laws
import Idealize.ShloMosaic.Lib.Pipeline.Value
import Idealize.ShloMosaic.Lib.ValueIdx

namespace Cert.Keepdims

open Idealize.ShloMosaic Idealize.ShloMosaic.ValueIdx

section Layout
variable {α : Type}

/-- A vector `[a]` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two steps together: a vector kept as a column and spread over the rows reads, at `(p, c)`, the vector at `p`. -/
theorem spread_apply {a b : ℕ} (x : (⟨1, ![a]⟩ : Shape).Idx → α) (hc : (⟨1, ![a]⟩ : Shape).ShapeCasts ⟨2, ![a, 1]⟩)
    (hb : (⟨2, ![a, 1]⟩ : Shape).Broadcasts ⟨2, ![a, b]⟩) (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

end Layout

section Reductions
variable {φ : FTy}

/-- Row `r` of a matrix reached through the index a reduction along the rows inserts. -/
theorem lift_row {a b : ℕ} (h : Shape.Reduces ⟨2, ![a, b]⟩ [1] ⟨1, ![a]⟩) (r : Fin a) (s : Fin b) :
    h.lift (ix1 r) s = ix2 r s :=
  funext fun d => Fin.ext (by match d with | ⟨0, _⟩ => rfl | ⟨1, _⟩ => rfl)

/-- On the extended reals the maximum along the rows, at row `r`, is the fold of `max`, from the accumulator's value,
    over that row's entries. -/
theorem rowMax_apply {a b : ℕ} (v : FVec Ideal ⟨2, ![a, b]⟩ φ) (acc : BitVec φ.bits)
    (h : Shape.Reduces ⟨2, ![a, b]⟩ [1] ⟨1, ![a]⟩) (hφ : FKind.Formats φ) (hacc : acc = FKind.maximumf.neutral φ hφ) (r : Fin a) :
    multiReduction .maximumf [1] ⟨1, ![a]⟩ v acc h hφ hacc (ix1 r)
      = (Finset.univ : Finset (Fin b)).fold max (FloatOps.ofBits (F := Ideal) φ acc) (fun s => v (ix2 r s)) :=
  (Ideal.multiReduction_maximumf_single v acc h hφ hacc (ix1 r)).trans
    (congrArg (fun f => (Finset.univ : Finset (Fin b)).fold max (FloatOps.ofBits (F := Ideal) φ acc) f)
      (funext fun s => congrArg v (lift_row h r s)))

/-- On the extended reals the sum along the rows, at row `r`, is the sum of that row's entries. -/
theorem rowSum_apply {a b : ℕ} (v : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (r : Fin a) :
    multiReduction .add [1] ⟨1, ![a]⟩ v acc h hφ hacc (ix1 r) = ∑ s : Fin b, v (ix2 r s) :=
  (Ideal.multiReduction_add_single v acc h hφ hacc (ix1 r)).trans
    (Finset.sum_congr rfl fun s _ => congrArg v (lift_row h r s))

end Reductions

end Cert.Keepdims
-- ==== Proof.BlockMatmul.lean ====
/-
  The kernel's two matrix products read at an entry, on the extended reals.

  Both contract the left operand's columns against the right operand's rows into a zero accumulator, so an entry
  `(r, c)` of the product is the plain sum over the contracted position `k` of `A (r, k) · B (k, c)`:
  the scores contract the 1024 feature positions, the weighted average contracts the 2048 source rows.
-/
import proofs.«118425_j86809878986979_2_alg».proof.Proof.Gen.KernelIdeal
import Idealize.ShloMosaic.PureOps.Ideal.Laws
import Idealize.ShloMosaic.Lib.ValueIdx

noncomputable section

namespace Cert.KernelIdeal.Block

open Cert.KernelIdeal Cert.KernelIdeal.Gen Idealize.ShloMosaic Idealize.ShloMosaic.ValueIdx

/-! ## The score product: [512, 1024] times [1024, 2048] -/

theorem score_lhs0 (i : S512x2048.Idx) (q : dot_S512x1024_S1024x2048_S512x2048_1_0_0_1_n_n.contr.Idx) :
    (dot_S512x1024_S1024x2048_S512x2048_1_0_0_1_n_n.lhsIdx i q 0).val = (i 0).val := by
  unfold DotDims.lhsIdx
  rw [dif_neg (show ¬(0 : Fin S512x1024.rank) ∈ dot_S512x1024_S1024x2048_S512x2048_1_0_0_1_n_n.lhsBatch by decide), dif_pos (show (0 : Fin S512x1024.rank) ∈ dot_S512x1024_S1024x2048_S512x2048_1_0_0_1_n_n.lhsNonContracting by decide)]
  rfl
theorem score_lhs1 (i : S512x2048.Idx) (q : dot_S512x1024_S1024x2048_S512x2048_1_0_0_1_n_n.contr.Idx) :
    (dot_S512x1024_S1024x2048_S512x2048_1_0_0_1_n_n.lhsIdx i q 1).val = (q ⟨0, by decide⟩).val :=
  dot_S512x1024_S1024x2048_S512x2048_1_0_0_1_n_n.lhsIdx_val_of_single rfl i q
theorem score_rhs0 (i : S512x2048.Idx) (q : dot_S512x1024_S1024x2048_S512x2048_1_0_0_1_n_n.contr.Idx) :
    (dot_S512x1024_S1024x2048_S512x2048_1_0_0_1_n_n.rhsIdx i q 0).val = (q ⟨0, by decide⟩).val :=
  dot_S512x1024_S1024x2048_S512x2048_1_0_0_1_n_n.rhsIdx_val_of_single rfl i q
theorem score_rhs1 (i : S512x2048.Idx) (q : dot_S512x1024_S1024x2048_S512x2048_1_0_0_1_n_n.contr.Idx) :
    (dot_S512x1024_S1024x2048_S512x2048_1_0_0_1_n_n.rhsIdx i q 1).val = (i 1).val := by
  unfold DotDims.rhsIdx
  rw [dif_neg (show ¬(1 : Fin S1024x2048.rank) ∈ dot_S512x1024_S1024x2048_S512x2048_1_0_0_1_n_n.rhsBatch by decide), dif_pos (show (1 : Fin S1024x2048.rank) ∈ dot_S512x1024_S1024x2048_S512x2048_1_0_0_1_n_n.rhsNonContracting by decide)]
  rfl

/-- Entry `(r, s)` of the score product is `∑ k, A (r, k) · B (k, s)`, whatever precision the product is asked at. -/
theorem scoreProduct_apply (prec : Option ContractPrecision) (A : FVec Ideal S512x1024 .f32) (B : FVec Ideal S1024x2048 .f32)
    (r : Fin 512) (s : Fin 2048) :
    matmul dot_S512x1024_S1024x2048_S512x2048_1_0_0_1_n_n prec A B (constant (F := Ideal) S512x2048 .f32 0x00000000#32) (ix2 r s)
      = ∑ k : Fin 1024, A (ix2 r k) * B (ix2 k s) := by
  simp only [matmul]
  rw [Ideal.matmul_constant_zero_apply, ← Equiv.sum_comp (contrEquiv1 dot_S512x1024_S1024x2048_S512x2048_1_0_0_1_n_n 1024 rfl rfl).symm]
  refine Finset.sum_congr rfl fun k _ => ?_
  have hk := contrEquiv1_symm_val dot_S512x1024_S1024x2048_S512x2048_1_0_0_1_n_n 1024 rfl rfl k
  have el : dot_S512x1024_S1024x2048_S512x2048_1_0_0_1_n_n.lhsIdx (ix2 r s) ((contrEquiv1 dot_S512x1024_S1024x2048_S512x2048_1_0_0_1_n_n 1024 rfl rfl).symm k) = ix2 r k := funext fun a => Fin.ext (by
    match a with
    | ⟨0, _⟩ => exact score_lhs0 _ _
    | ⟨1, _⟩ => exact (score_lhs1 _ _).trans hk)
  have er : dot_S512x1024_S1024x2048_S512x2048_1_0_0_1_n_n.rhsIdx (ix2 r s) ((contrEquiv1 dot_S512x1024_S1024x2048_S512x2048_1_0_0_1_n_n 1024 rfl rfl).symm k) = ix2 k s := funext fun a => Fin.ext (by
    match a with
    | ⟨0, _⟩ => exact (score_rhs0 _ _).trans hk
    | ⟨1, _⟩ => exact score_rhs1 _ _)
  rw [el, er]

/-! ## The averaging product: [512, 2048] times [2048, 1024] -/

theorem avg_lhs0 (i : S512x1024.Idx) (q : dot_S512x2048_S2048x1024_S512x1024_1_0_0_1_n_n.contr.Idx) :
    (dot_S512x2048_S2048x1024_S512x1024_1_0_0_1_n_n.lhsIdx i q 0).val = (i 0).val := by
  unfold DotDims.lhsIdx
  rw [dif_neg (show ¬(0 : Fin S512x2048.rank) ∈ dot_S512x2048_S2048x1024_S512x1024_1_0_0_1_n_n.lhsBatch by decide), dif_pos (show (0 : Fin S512x2048.rank) ∈ dot_S512x2048_S2048x1024_S512x1024_1_0_0_1_n_n.lhsNonContracting by decide)]
  rfl
theorem avg_lhs1 (i : S512x1024.Idx) (q : dot_S512x2048_S2048x1024_S512x1024_1_0_0_1_n_n.contr.Idx) :
    (dot_S512x2048_S2048x1024_S512x1024_1_0_0_1_n_n.lhsIdx i q 1).val = (q ⟨0, by decide⟩).val :=
  dot_S512x2048_S2048x1024_S512x1024_1_0_0_1_n_n.lhsIdx_val_of_single rfl i q
theorem avg_rhs0 (i : S512x1024.Idx) (q : dot_S512x2048_S2048x1024_S512x1024_1_0_0_1_n_n.contr.Idx) :
    (dot_S512x2048_S2048x1024_S512x1024_1_0_0_1_n_n.rhsIdx i q 0).val = (q ⟨0, by decide⟩).val :=
  dot_S512x2048_S2048x1024_S512x1024_1_0_0_1_n_n.rhsIdx_val_of_single rfl i q
theorem avg_rhs1 (i : S512x1024.Idx) (q : dot_S512x2048_S2048x1024_S512x1024_1_0_0_1_n_n.contr.Idx) :
    (dot_S512x2048_S2048x1024_S512x1024_1_0_0_1_n_n.rhsIdx i q 1).val = (i 1).val := by
  unfold DotDims.rhsIdx
  rw [dif_neg (show ¬(1 : Fin S2048x1024.rank) ∈ dot_S512x2048_S2048x1024_S512x1024_1_0_0_1_n_n.rhsBatch by decide), dif_pos (show (1 : Fin S2048x1024.rank) ∈ dot_S512x2048_S2048x1024_S512x1024_1_0_0_1_n_n.rhsNonContracting by decide)]
  rfl

/-- Entry `(r, h)` of the averaging product is `∑ s, A (r, s) · B (s, h)`. -/
theorem avgProduct_apply (prec : Option ContractPrecision) (A : FVec Ideal S512x2048 .bf16) (B : FVec Ideal S2048x1024 .bf16)
    (r : Fin 512) (h : Fin 1024) :
    matmul dot_S512x2048_S2048x1024_S512x1024_1_0_0_1_n_n prec A B (constant (F := Ideal) S512x1024 .f32 0x00000000#32) (ix2 r h)
      = ∑ s : Fin 2048, A (ix2 r s) * B (ix2 s h) := by
  simp only [matmul]
  rw [Ideal.matmul_constant_zero_apply, ← Equiv.sum_comp (contrEquiv1 dot_S512x2048_S2048x1024_S512x1024_1_0_0_1_n_n 2048 rfl rfl).symm]
  refine Finset.sum_congr rfl fun k _ => ?_
  have hk := contrEquiv1_symm_val dot_S512x2048_S2048x1024_S512x1024_1_0_0_1_n_n 2048 rfl rfl k
  have el : dot_S512x2048_S2048x1024_S512x1024_1_0_0_1_n_n.lhsIdx (ix2 r h) ((contrEquiv1 dot_S512x2048_S2048x1024_S512x1024_1_0_0_1_n_n 2048 rfl rfl).symm k) = ix2 r k := funext fun a => Fin.ext (by
    match a with
    | ⟨0, _⟩ => exact avg_lhs0 _ _
    | ⟨1, _⟩ => exact (avg_lhs1 _ _).trans hk)
  have er : dot_S512x2048_S2048x1024_S512x1024_1_0_0_1_n_n.rhsIdx (ix2 r h) ((contrEquiv1 dot_S512x2048_S2048x1024_S512x1024_1_0_0_1_n_n 2048 rfl rfl).symm k) = ix2 k h := funext fun a => Fin.ext (by
    match a with
    | ⟨0, _⟩ => exact (avg_rhs0 _ _).trans hk
    | ⟨1, _⟩ => exact avg_rhs1 _ _)
  rw [el, er]

end Cert.KernelIdeal.Block

end
-- ==== Proof.BlockAttend.lean ====
/-
  What the kernel's body stores for one grid point, read at an entry: for a block `Q` of 512 query rows and the block
  `E` of a batch's 2048 source rows, entry `(r, h)` of the stored block is query row `r` of `Q` attending over the rows
  of `E` (`Cert.Attention.rowAttend`).

  The body computes, in order: the scores `Q · Eᵀ` (a product into a zero accumulator; entry `(r, s)` is
  `∑ k, Q (r, k) · E (s, k)`, the reference's `∑ k, E (s, k) · Q (r, k)` with each product's factors swapped); each
  row's maximum, kept as a column and spread back over the row; the exponentials of the differences; each row's
  sum of those, kept and spread the same way; the quotients; and the product of the quotients with `E`. The two
  changes of number format in front of the last product are the identity on the extended reals.
-/
import proofs.«118425_j86809878986979_2_alg».proof.Proof.Gen.KernelIdeal.Skeleton
import proofs.«118425_j86809878986979_2_alg».proof.Proof.RowAttend
import proofs.«118425_j86809878986979_2_alg».proof.Proof.LibKeepdims
import proofs.«118425_j86809878986979_2_alg».proof.Proof.BlockMatmul
import Idealize.ShloMosaic.Lib.ValueLayout

noncomputable section

namespace Cert.KernelIdeal.Block

open Cert.KernelIdeal Cert.KernelIdeal.Gen Idealize.ShloMosaic Idealize.ShloMosaic.ValueIdx Cert.Attention Cert.Keepdims

/-! ## The scores -/

/-- The block of scores: the query block times the transposed source block. -/
def scores (v0 : Vec Ideal S1x512x1024 .f32) (v2 : Vec Ideal S1x2048x1024 .f32) : FVec Ideal S512x2048 .f32 :=
  matmul dot_S512x1024_S1024x2048_S512x2048_1_0_0_1_n_n (some .fp32)
    (shapeCast S512x1024 v0 shapeCasts_S1x512x1024_S512x1024 : FVec Ideal S512x1024 .f32)
    (transpose S1024x2048 [1, 0] (shapeCast S2048x1024 v2 shapeCasts_S1x2048x1024_S2048x1024 : FVec Ideal S2048x1024 .f32)
      transposes_S2048x1024_p1_0_S1024x2048 : FVec Ideal S1024x2048 .f32)
    (constant (F := Ideal) S512x2048 .f32 0x00000000#32)

/-- Entry `(r, s)` of the scores is the score of source row `s` for query row `r`. -/
theorem scores_apply (v0 : Vec Ideal S1x512x1024 .f32) (v2 : Vec Ideal S1x2048x1024 .f32) (r : Fin 512) (s : Fin 2048) :
    scores v0 v2 (ix2 r s) = rowScore (fun k => v0 (ix3 (0 : Fin 1) r k)) (fun s k => v2 (ix3 (0 : Fin 1) s k)) s := by
  unfold scores rowScore
  refine (scoreProduct_apply _ _ _ r s).trans (Finset.sum_congr rfl fun k _ => ?_)
  refine (mul_comm _ _).trans (congrArg₂ (· * ·) ?_ ?_)
  · exact (transpose_ix2_apply _ _ k s).trans (shapeCast_1ab_ab_apply v2 _ s k)
  · exact shapeCast_1ab_ab_apply v0 _ r k

/-! ## The softmax of a block of scores, row by row -/

/-- Each row's maximum. -/
def top (S : FVec Ideal S512x2048 .f32) : FVec Ideal S512 .f32 :=
  multiReduction .maximumf [1] S512 S 0xFF800000#32 reduces_S512x2048_S512 (.inl rfl) rfl

/-- The exponentials of the scores' distances below their row's maximum. -/
def shifted (S : FVec Ideal S512x2048 .f32) : FVec Ideal S512x2048 .f32 :=
  exp (subf S (broadcastTo S512x2048 (shapeCast S512x1 (top S) shapeCasts_S512_S512x1) broadcasts_S512x1_S512x2048))

/-- Each row's sum of those exponentials. -/
def norm (S : FVec Ideal S512x2048 .f32) : FVec Ideal S512 .f32 :=
  multiReduction .add [1] S512 (shifted S) 0x00000000#32 reduces_S512x2048_S512 (.inl rfl) rfl

/-- The weights: each exponential over its row's sum. -/
def weights (S : FVec Ideal S512x2048 .f32) : FVec Ideal S512x2048 .f32 :=
  divf (shifted S) (broadcastTo S512x2048 (shapeCast S512x1 (norm S) shapeCasts_S512_S512x1) broadcasts_S512x1_S512x2048)

theorem top_apply (S : FVec Ideal S512x2048 .f32) (r : Fin 512) :
    top S (ix1 r) = (Finset.univ : Finset (Fin 2048)).fold max start (fun s => S (ix2 r s)) :=
  rowMax_apply S 0xFF800000#32 reduces_S512x2048_S512 (.inl rfl) rfl r

theorem shifted_apply (S : FVec Ideal S512x2048 .f32) (r : Fin 512) (s : Fin 2048) :
    shifted S (ix2 r s) = Ideal.exp (S (ix2 r s) - (Finset.univ : Finset (Fin 2048)).fold max start (fun s' => S (ix2 r s'))) :=
  congrArg (fun x => Ideal.exp (S (ix2 r s) - x))
    ((spread_apply (top S) shapeCasts_S512_S512x1 broadcasts_S512x1_S512x2048 r s).trans (top_apply S r))

theorem norm_apply (S : FVec Ideal S512x2048 .f32) (r : Fin 512) :
    norm S (ix1 r) = ∑ s : Fin 2048, shifted S (ix2 r s) :=
  rowSum_apply (shifted S) 0x00000000#32 reduces_S512x2048_S512 (.inl rfl) rfl r

theorem weights_apply (S : FVec Ideal S512x2048 .f32) (r : Fin 512) (s : Fin 2048) :
    weights S (ix2 r s) = Ideal.div (shifted S (ix2 r s)) (∑ s' : Fin 2048, shifted S (ix2 r s')) :=
  congrArg (fun x => Ideal.div (shifted S (ix2 r s)) x)
    ((spread_apply (norm S) shapeCasts_S512_S512x1 broadcasts_S512x1_S512x2048 r s).trans (norm_apply S r))

/-- Row `r` of the weights of a block's scores is the attention weights of query row `r`. -/
theorem weights_scores_apply (v0 : Vec Ideal S1x512x1024 .f32) (v2 : Vec Ideal S1x2048x1024 .f32) (r : Fin 512) (s : Fin 2048) :
    weights (scores v0 v2) (ix2 r s) = rowWeight (fun k => v0 (ix3 (0 : Fin 1) r k)) (fun s k => v2 (ix3 (0 : Fin 1) s k)) s := by
  have hexp : ∀ s : Fin 2048, shifted (scores v0 v2) (ix2 r s)
      = rowExp (fun k => v0 (ix3 (0 : Fin 1) r k)) (fun s k => v2 (ix3 (0 : Fin 1) s k)) s := fun s => by
    rw [shifted_apply]
    unfold rowExp rowTop
    rw [scores_apply]
    exact congrArg (fun f => Ideal.exp (_ - (Finset.univ : Finset (Fin 2048)).fold max start f))
      (funext fun s' => scores_apply v0 v2 r s')
  rw [weights_apply]
  unfold rowWeight rowNorm
  rw [hexp s]
  exact congrArg (fun x => Ideal.div _ x) (Finset.sum_congr rfl fun s' _ => hexp s')

/-! ## The stored block -/

/-- The body's stored value, with its stages named. -/
theorem pay_eq (v0 : Vec Ideal S1x512x1024 .f32) (v2 : Vec Ideal S1x2048x1024 .f32) :
    k0_pay1 (F := Ideal) v0 v2
      = shapeCast S1x512x1024
          (matmul dot_S512x2048_S2048x1024_S512x1024_1_0_0_1_n_n none
            (truncf .bf16 (weights (scores v0 v2)) bitsLt_bf16_f32)
            (truncf .bf16 (shapeCast S2048x1024 v2 shapeCasts_S1x2048x1024_S2048x1024 : FVec Ideal S2048x1024 .f32) bitsLt_bf16_f32)
            (constant (F := Ideal) S512x1024 .f32 0x00000000#32))
          shapeCasts_S512x1024_S1x512x1024 := rfl

/-- Entry `(0, r, h)` of the stored block: query row `r` attending over the source block's rows. -/
theorem pay_apply (v0 : Vec Ideal S1x512x1024 .f32) (v2 : Vec Ideal S1x2048x1024 .f32) (u : Fin 1) (r : Fin 512) (h : Fin 1024) :
    k0_pay1 (F := Ideal) v0 v2 (ix3 u r h)
      = rowAttend (fun k => v0 (ix3 (0 : Fin 1) r k)) (fun s k => v2 (ix3 (0 : Fin 1) s k)) h := by
  rw [pay_eq]
  refine (shapeCast_ab_1ab_apply _ _ u r h).trans ?_
  refine (avgProduct_apply _ _ _ r h).trans ?_
  unfold rowAttend
  refine Finset.sum_congr rfl fun s _ => congrArg₂ (· * ·) ?_ ?_
  · exact weights_scores_apply v0 v2 r s
  · exact shapeCast_1ab_ab_apply v2 _ s h

end Cert.KernelIdeal.Block

end
-- ==== Proof.KernelAttend.lean ====
/-
  From the blocks to the whole array: after the kernel's run its result array is `Cert.Attention.attend` of its two
  argument arrays.

  The grid has 16 × 4 points `(b, p)`. At a point the body reads rows `512 p … 512 p + 511` of batch `b` of the first
  argument (the queries) and all 2048 rows of batch `b` of the second (the source rows), and what it stores is written
  back to rows `512 p … 512 p + 511` of batch `b` of the result. An entry `(0, r, h)` of the stored block is query row
  `r` of the block attending over the source block, which is entry `(b, 512 p + r, h)` of `attend`; and every entry
  `(b, t, h)` of the result lies in the block of the point `(b, t / 512)`, so the blocks fill the array.
-/
import proofs.«118425_j86809878986979_2_alg».proof.Proof.Gen.KernelIdeal.Value
import proofs.«118425_j86809878986979_2_alg».proof.Proof.BlockAttend
import Idealize.ShloMosaic.Lib.Pipeline.Value

noncomputable section

namespace Cert.KernelIdeal.Whole

open Cert.KernelIdeal Cert.KernelIdeal.Gen Cert.KernelIdeal.Block Idealize.ShloMosaic Idealize.ShloMosaic.TcCoe Idealize.SL.Sem
  Idealize.ShloMosaic.ValueIdx Cert.Attention
open Idealize.ShloMosaic.Pipeline (Dat)

variable (m : (ℓ : Loc nD τ sig) → Buf (Elt Ideal) ℓ) (ρ : Dev nD → PrngReg)

theorem offsets_zero : (![0, 0, 0] : Fin 3 → Nat) = fun _ => 0 := funext fun a => by fin_cases a <;> rfl

/-! ## Where the blocks sit -/

/-- The three windows' block indices at every grid point: the queries' and the result's blocks move together, the
    source block follows the batch only, and the result's block indices stay inside 16 × 4 × 1. -/
theorem block_indices : ∀ t : Fin cfg0.N,
    win0_0.index t (0 : Fin 3) = win0_2.index t (0 : Fin 3) ∧ win0_0.index t (1 : Fin 3) = win0_2.index t (1 : Fin 3)
    ∧ win0_0.index t (2 : Fin 3) = 0
    ∧ win0_1.index t (0 : Fin 3) = win0_2.index t (0 : Fin 3) ∧ win0_1.index t (1 : Fin 3) = 0 ∧ win0_1.index t (2 : Fin 3) = 0
    ∧ win0_2.index t (0 : Fin 3) ≤ 15 ∧ win0_2.index t (1 : Fin 3) ≤ 3 ∧ win0_2.index t (2 : Fin 3) = 0 :=
  (by decide +kernel : ∀ t : Fin grid0.N, _)

/-- Every block position `(b, p, 0)` of the result is some grid point's. -/
theorem block_onto : ∀ (q0 : Fin 16) (q1 : Fin 4), ∃ t : Fin cfg0.N, win0_2.index t = ![q0.val, q1.val, 0] :=
  (by decide +kernel : ∀ (q0 : Fin 16) (q1 : Fin 4), ∃ t : Fin grid0.N, win0_2.index t = ![q0.val, q1.val, 0])

/-- An entry of the queries' block at a point is the entry of the first argument at block index × block size plus the
    entry's own coordinate, on each axis. -/
theorem queries_apply (c : Dev nD) (t : Fin cfg0.N) (x : S1x512x1024.Idx) (k : S16x2048x1024.Idx)
    (h0 : (k 0).val = win0_0.index t (0 : Fin 3) * 1 + (x 0).val) (h1 : (k 1).val = win0_0.index t (1 : Fin 3) * 512 + (x 1).val)
    (h2 : (k 2).val = win0_0.index t (2 : Fin 3) * 1024 + (x 2).val) :
    (iblk m c 0 t : Vec Ideal S1x512x1024 .f32) x = (V m c main_arg0 : S16x2048x1024.Idx → Elt Ideal .f32) k := by
  unfold iblk
  rw [View.read_apply]
  show V m c main_arg0 _ = V m c main_arg0 _
  congr 1
  funext a
  apply Fin.ext
  match a with
  | ⟨0, _⟩ => show win0_0.index t (0 : Fin 3) * 1 + 1 * (x 0).val = (k 0).val; omega
  | ⟨1, _⟩ => show win0_0.index t (1 : Fin 3) * 512 + 1 * (x 1).val = (k 1).val; omega
  | ⟨2, _⟩ => show win0_0.index t (2 : Fin 3) * 1024 + 1 * (x 2).val = (k 2).val; omega

/-- The same for the source block and the second argument. -/
theorem sources_apply (c : Dev nD) (t : Fin cfg0.N) (x : S1x2048x1024.Idx) (k : S16x2048x1024.Idx)
    (h0 : (k 0).val = win0_1.index t (0 : Fin 3) * 1 + (x 0).val) (h1 : (k 1).val = win0_1.index t (1 : Fin 3) * 2048 + (x 1).val)
    (h2 : (k 2).val = win0_1.index t (2 : Fin 3) * 1024 + (x 2).val) :
    (iblk m c 1 t : Vec Ideal S1x2048x1024 .f32) x = (V m c main_arg1 : S16x2048x1024.Idx → Elt Ideal .f32) k := by
  unfold iblk
  rw [View.read_apply]
  show V m c main_arg1 _ = V m c main_arg1 _
  congr 1
  funext a
  apply Fin.ext
  match a with
  | ⟨0, _⟩ => show win0_1.index t (0 : Fin 3) * 1 + 1 * (x 0).val = (k 0).val; omega
  | ⟨1, _⟩ => show win0_1.index t (1 : Fin 3) * 2048 + 1 * (x 1).val = (k 1).val; omega
  | ⟨2, _⟩ => show win0_1.index t (2 : Fin 3) * 1024 + 1 * (x 2).val = (k 2).val; omega

/-! ## One block of the result -/

/-- If a query block holds rows `512 p …` of batch `b` of `A0` and a source block holds batch `b` of `A1`, then entry
    `(0, r, h)` of what the body stores is entry `(b, 512 p + r, h)` of `attend A0 A1`. -/
theorem block_entry (A0 A1 : Arr) (x0 : Vec Ideal S1x512x1024 .f32) (x1 : Vec Ideal S1x2048x1024 .f32) (b : Fin 16) (p : Nat)
    (h0 : ∀ (r : Fin 512) (k : Fin 1024) (hr : p * 512 + r.val < 2048),
      x0 (ix3 (0 : Fin 1) r k) = A0 (ix3 b ⟨p * 512 + r.val, hr⟩ k))
    (h1 : ∀ (s : Fin 2048) (k : Fin 1024), x1 (ix3 (0 : Fin 1) s k) = A1 (ix3 b s k))
    (y : S1x512x1024.Idx) (i : S16x2048x1024.Idx)
    (hi0 : (i 0).val = b.val) (hi1 : (i 1).val = p * 512 + (y 1).val) (hi2 : (i 2).val = (y 2).val) :
    k0_pay1 (F := Ideal) x0 x1 y = attend A0 A1 i := by
  obtain ⟨u, r, h, rfl⟩ : ∃ (u : Fin 1) (r : Fin 512) (h : Fin 1024), y = ix3 u r h := ⟨y 0, y 1, y 2, eq_ix3 y⟩
  obtain ⟨b', t, h', rfl⟩ : ∃ (b' : Fin 16) (t : Fin 2048) (h' : Fin 1024), i = ix3 b' t h' := ⟨i 0, i 1, i 2, eq_ix3 i⟩
  obtain rfl : b' = b := Fin.ext hi0
  obtain rfl : h' = h := Fin.ext hi2
  have hr : p * 512 + r.val < 2048 := by have := t.isLt; have e : t.val = p * 512 + r.val := hi1; omega
  obtain rfl : t = ⟨p * 512 + r.val, hr⟩ := Fin.ext hi1
  rw [pay_apply, attend_apply]
  exact congrArg₂ (fun q E => rowAttend q E h') (funext fun k => h0 r k hr) (funext fun s => funext fun k => h1 s k)

/-- What a grid point writes back is its block of `attend` of the argument arrays. -/
theorem flushed_eq (c : Dev nD) (t : Fin cfg0.N) :
    (dats m 0 c).flushed 2 t
      = ((cfg0.win 2).blk t).view.read (Elt Ideal) (attend (V m c main_arg0) (V m c main_arg1)) := by
  rw [Cert.KernelIdeal.Value.flushed2]
  unfold out0_2
  rw [View.canon_unit_zero offsets_zero]
  simp only [View.ld_unit_zero (S := S1x512x1024) offsets_zero, View.ld_unit_zero (S := S1x2048x1024) offsets_zero]
  obtain ⟨e00, e01, e02, e10, e11, e12, l0, l1, e22⟩ := block_indices t
  funext j
  show k0_pay1 (F := Ideal) (iblk m c 0 t) (iblk m c 1 t) j
    = attend (V m c main_arg0) (V m c main_arg1) (((cfg0.win 2).blk t).view.emb j)
  have hj0 : (j 0).val < 1 := (j 0).isLt
  refine block_entry _ _ _ _ ⟨win0_2.index t (0 : Fin 3), by omega⟩ (win0_2.index t (1 : Fin 3)) ?_ ?_ j _ ?_ ?_ ?_
  · intro r k hr
    refine queries_apply m c t _ _ ?_ ?_ ?_
    · show win0_2.index t (0 : Fin 3) = win0_0.index t (0 : Fin 3) * 1 + 0; omega
    · show win0_2.index t (1 : Fin 3) * 512 + r.val = win0_0.index t (1 : Fin 3) * 512 + r.val; omega
    · show k.val = win0_0.index t (2 : Fin 3) * 1024 + k.val; omega
  · intro s k
    refine sources_apply m c t _ _ ?_ ?_ ?_
    · show win0_2.index t (0 : Fin 3) = win0_1.index t (0 : Fin 3) * 1 + 0; omega
    · show s.val = win0_1.index t (1 : Fin 3) * 2048 + s.val; omega
    · show k.val = win0_1.index t (2 : Fin 3) * 1024 + k.val; omega
  · show win0_2.index t (0 : Fin 3) * 1 + 1 * (j 0).val = win0_2.index t (0 : Fin 3); omega
  · show win0_2.index t (1 : Fin 3) * 512 + 1 * (j 1).val = win0_2.index t (1 : Fin 3) * 512 + (j 1).val; omega
  · show win0_2.index t (2 : Fin 3) * 1024 + 1 * (j 2).val = (j 2).val; omega

/-! ## The blocks fill the array -/

/-- An entry of the result is in a point's block when each coordinate is in the block's range on its axis. -/
theorem mem_block (t : Fin cfg0.N) (i : S16x2048x1024.Idx) :
    i ∈ ((cfg0.win 2).blk t).view.set ↔ ∀ a : Fin 3, win0_2.index t a * S1x512x1024.size a ≤ (i a).val
      ∧ (i a).val < win0_2.index t a * S1x512x1024.size a + S1x512x1024.size a := by
  show i ∈ ((View.whole main_v0).slice (win0_2.rect t)).set ↔ _
  rw [View.set_slice_whole, Rect.mem_set_unit]
  exact Iff.rfl

/-- Entry `(b, t, h)` is in the block of the point `(b, t / 512)`. -/
theorem covered (i : S16x2048x1024.Idx) :
    ∃ t : Fin cfg0.N, (cfg0.win 2).flush t = true ∧ i ∈ ((cfg0.win 2).blk t).view.set := by
  have hi0 : (i 0).val < 16 := (i 0).isLt
  have hi1 : (i 1).val < 2048 := (i 1).isLt
  have hi2 : (i 2).val < 1024 := (i 2).isLt
  obtain ⟨t, ht⟩ := block_onto ⟨(i 0).val, hi0⟩ ⟨(i 1).val / 512, by omega⟩
  have q0 : win0_2.index t (0 : Fin 3) = (i 0).val := congrFun ht 0
  have q1 : win0_2.index t (1 : Fin 3) = (i 1).val / 512 := congrFun ht 1
  have q2 : win0_2.index t (2 : Fin 3) = 0 := congrFun ht 2
  refine ⟨t, flush0_2 t, ?_⟩
  rw [mem_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 1024 ≤ (i 2).val ∧ (i 2).val < win0_2.index t (2 : Fin 3) * 1024 + 1024; omega

/-! ## The run -/

/-- After the run the result array is `attend` of the argument arrays as launched. -/
theorem result_eq (c : Dev nD) :
    (dats m 0 c).arrAt 2 cfg0.N = attend (m ((c : Thread nD τ).loc main_arg0)) (m ((c : Thread nD τ).loc main_arg1)) :=
  (dats m 0 c).arrAt_eq_of_cover 2 (attend (V m c main_arg0) (V m c main_arg1)) (fun t _ => flushed_eq m c t) covered

/-- The kernel's run: it terminates with the result array at `attend` of the arguments and the arguments unchanged. -/
theorem run : θ_run defs (onTc (τ := τ) (main (F := Ideal))) ⟨m, fun _ => 0, ρ⟩ fun r => ∀ c : Dev nD,
      r.2.mem ((c : Thread nD τ).loc main_v0) = attend (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result_eq m c), (h c).2⟩)
    (Cert.KernelIdeal.Value.run_blocks m ρ)

end Cert.KernelIdeal.Whole

end
-- ==== Proof.RefAttend.lean ====
/-
  The reference read at an entry: its result array is `Cert.Attention.attend` of its two arguments.

  The reference forms all scores `[b, s, t] = ∑ k, enc (b, s, k) · hid (b, t, k)` at once, takes the maximum over the
  source axis `s` from -∞ (and once more against a broadcast -∞, which changes nothing: a maximum taken from a value
  is at least that value), subtracts it, exponentiates, sums over `s` from zero, divides, and contracts the source axis
  against `enc` again. Read at `(b, t, h)`, every stage is the matching stage of query row `(b, t)` attending over
  batch `b`'s source rows.
-/
import proofs.«118425_j86809878986979_2_alg».proof.Proof.Gen.ReferenceIdeal.Read
import proofs.«118425_j86809878986979_2_alg».proof.Proof.RowAttend
import Idealize.ShloMosaic.PureOps.Ideal.Laws

noncomputable section

namespace Cert.ReferenceIdeal.Attend

open Cert.ReferenceIdeal Cert.ReferenceIdeal.Gen Cert.ReferenceIdeal.Read Idealize.ShloMosaic Idealize.ShloMosaic.ValueIdx
  Cert.Attention

variable (x0 x1 : (⟨S16x2048x1024, .f32⟩ : BufTy).Contents (Elt Ideal))

/-- Query row `(b, t)` of the first argument. -/
abbrev qrow (b : Fin 16) (t : Fin 2048) : Fin 1024 → EReal := fun k => x0 (ix3 b t k)
/-- Batch `b`'s source rows of the second argument. -/
abbrev srows (b : Fin 16) : Fin 2048 → Fin 1024 → EReal := fun s k => x1 (ix3 b s k)

/-- The scores at `(b, s, t)`: source row `s` against query row `t`. -/
theorem score_apply (b : Fin 16) (t s : Fin 2048) :
    val_main_v0 (F := Ideal) x0 x1 (ix3 b s t) = rowScore (qrow x0 b t) (srows x1 b) s := by
  refine (val_main_v0_apply x0 x1 _).trans ?_
  unfold rowScore
  refine Finset.sum_congr rfl fun k _ => congrArg₂ (· * ·) (congrArg x1 ?_) (congrArg x0 ?_)
  · exact funext fun a => by match a with | ⟨0, _⟩ => rfl | ⟨1, _⟩ => rfl | ⟨2, _⟩ => rfl
  · exact funext fun a => by match a with | ⟨0, _⟩ => rfl | ⟨1, _⟩ => rfl | ⟨2, _⟩ => rfl

/-- The maximum over the source axis at `(b, t)`, after the second maximum against -∞. -/
theorem top_apply (b : Fin 16) (t : Fin 2048) :
    val_main_v3 (F := Ideal) x0 x1 (ix2 b t) = rowTop (qrow x0 b t) (srows x1 b) := by
  have hred : S16x2048x2048.Reduces [1] S16x2048 := by decide
  have h1 : val_main_v1 (F := Ideal) x0 x1 (ix2 b t) = rowTop (qrow x0 b t) (srows x1 b) := by
    unfold val_main_v1 rowTop
    refine (Host.reduce_eq_fold_single _ _ _ reducesTo_S16x2048x2048_S16x2048_d1 hred h_S_ (ix2 b t)).trans ?_
    refine congrArg (fun f => (Finset.univ : Finset (Fin 2048)).fold max start f) (funext fun s => ?_)
    show val_main_v0 (F := Ideal) x0 x1 (hred.lift (ix2 b t) s) = _
    rw [show hred.lift (ix2 b t) s = ix3 b s t from
      funext fun a => Fin.ext (by match a with | ⟨0, _⟩ => rfl | ⟨1, _⟩ => rfl | ⟨2, _⟩ => rfl)]
    exact score_apply x0 x1 b t s
  rw [val_main_v3_apply, h1]
  show max start (rowTop (qrow x0 b t) (srows x1 b)) = _
  exact max_eq_right ((Finset.le_fold_max _).mpr (Or.inl le_rfl))

/-- The exponentials at `(b, s, t)`. -/
theorem exp_apply (b : Fin 16) (t s : Fin 2048) :
    val_main_v7 (F := Ideal) x0 x1 (ix3 b s t) = rowExp (qrow x0 b t) (srows x1 b) s := by
  rw [val_main_v7_apply, val_main_v6_apply, val_main_v5_apply, val_main_v4_apply,
    show idx_main_v4 (idx_main_v5 (ix3 b s t)) = ix2 b t from
      funext fun a => by match a with | ⟨0, _⟩ => rfl | ⟨1, _⟩ => rfl,
    top_apply, score_apply]
  rfl

/-- The sums of the exponentials over the source axis at `(b, t)`. -/
theorem norm_apply (b : Fin 16) (t : Fin 2048) :
    val_main_v8 (F := Ideal) x0 x1 (ix2 b t) = rowNorm (qrow x0 b t) (srows x1 b) := by
  rw [val_main_v8_apply]
  unfold rowNorm
  rw [show val_main_cst_1 (F := Ideal) (Shape.Idx.first h_S_) = 0 from Ideal.ofBits_zero_f32, zero_add]
  refine Finset.sum_congr rfl fun s _ => ?_
  rw [show idx_main_v8 (ix2 b t) s = ix3 b s t from
    funext fun a => by match a with | ⟨0, _⟩ => rfl | ⟨1, _⟩ => rfl | ⟨2, _⟩ => rfl]
  exact exp_apply x0 x1 b t s

/-- The weights at `(b, s, t)`. -/
theorem weight_apply (b : Fin 16) (t s : Fin 2048) :
    val_main_v11 (F := Ideal) x0 x1 (ix3 b s t) = rowWeight (qrow x0 b t) (srows x1 b) s := by
  rw [val_main_v11_apply, val_main_v10_apply, val_main_v9_apply,
    show idx_main_v9 (idx_main_v10 (ix3 b s t)) = ix2 b t from
      funext fun a => by match a with | ⟨0, _⟩ => rfl | ⟨1, _⟩ => rfl,
    norm_apply, exp_apply]
  rfl

/-- The reference's result is `attend` of its arguments. -/
theorem result_eq : val_main_v12 (F := Ideal) x0 x1 = attend x0 x1 := by
  funext i
  obtain ⟨b, t, h, rfl⟩ : ∃ (b : Fin 16) (t : Fin 2048) (h : Fin 1024), i = ix3 b t h := ⟨i 0, i 1, i 2, eq_ix3 i⟩
  rw [val_main_v12_apply, attend_apply]
  unfold rowAttend
  refine Finset.sum_congr rfl fun s _ => ?_
  rw [show lidx_main_v12 (ix3 b t h) s = ix3 b s t from
      funext fun a => by match a with | ⟨0, _⟩ => rfl | ⟨1, _⟩ => rfl | ⟨2, _⟩ => rfl,
    show ridx_main_v12 (ix3 b t h) s = ix3 b s h from
      funext fun a => by match a with | ⟨0, _⟩ => rfl | ⟨1, _⟩ => rfl | ⟨2, _⟩ => rfl,
    weight_apply]

end Cert.ReferenceIdeal.Attend

end
-- ==== Proof.lean ====
/-
  Dot-product attention over a whole source sequence: a tiled kernel against the plain formula.

  Arguments `hid` and `enc`, both [16, 2048, 1024]. For batch `b`, query row `t` and feature `h` the result is

      out (b, t, h) = ∑ s, w (b, t, s) · enc (b, s, h),
      w (b, t, s)   = exp (σ (b, t, s) - top (b, t)) / ∑ s', exp (σ (b, t, s') - top (b, t)),
      σ (b, t, s)   = ∑ k, enc (b, s, k) · hid (b, t, k),      top (b, t) = the maximum over s of σ (b, t, s), from -∞

  (`Cert.Attention.attend`). The reference computes this for all entries at once; the kernel computes it one block of
  512 query rows of one batch at a time, with that batch's 2048 source rows resident, and the 16 × 4 blocks fill the
  result. On the extended reals the two differ only in the order of the factors inside σ, so the only law used is
  that the product commutes; nothing needs the inputs to be finite. The kernel's changes of number format in front
  of its second product are the identity there, and its products into a zero accumulator are plain sums.

  The three programs' runs: the two kernels' from their frame runs, the reference's from its run read back, with the
  result dropped. The idealization rewrote nothing, so there is nothing to preserve. For the equivalence both runs
  are stated with the same result, `attend` of the kernel's arguments: the kernel's by `Cert.KernelIdeal.Whole.run`
  (the stored block at an entry, then the blocks over the array), the reference's by reading its stages at an entry
  (`Cert.ReferenceIdeal.Attend.result_eq`) and the agreement of the two programs' arguments.
-/
import proofs.«118425_j86809878986979_2_alg».proof.Defs
import proofs.«118425_j86809878986979_2_alg».proof.Proof.Gen.Kernel
import proofs.«118425_j86809878986979_2_alg».proof.Proof.Gen.Kernel.Skeleton
import proofs.«118425_j86809878986979_2_alg».proof.Proof.Gen.Kernel.Launch
import proofs.«118425_j86809878986979_2_alg».proof.Proof.Gen.Kernel.Points
import proofs.«118425_j86809878986979_2_alg».proof.Proof.Gen.Kernel.Frame
import proofs.«118425_j86809878986979_2_alg».proof.Proof.Gen.KernelIdeal
import proofs.«118425_j86809878986979_2_alg».proof.Proof.Gen.KernelIdeal.Skeleton
import proofs.«118425_j86809878986979_2_alg».proof.Proof.Gen.KernelIdeal.Launch
import proofs.«118425_j86809878986979_2_alg».proof.Proof.Gen.KernelIdeal.Points
import proofs.«118425_j86809878986979_2_alg».proof.Proof.Gen.KernelIdeal.Frame
import proofs.«118425_j86809878986979_2_alg».proof.Proof.Gen.ReferenceIdeal
import proofs.«118425_j86809878986979_2_alg».proof.Proof.Gen.Pre_finite_inputs
import proofs.«118425_j86809878986979_2_alg».proof.Proof.Gen.KernelIdeal.Value
import proofs.«118425_j86809878986979_2_alg».proof.Proof.Gen.ReferenceIdeal.Run
import proofs.«118425_j86809878986979_2_alg».proof.Proof.Gen.ReferenceIdeal.Read
import proofs.«118425_j86809878986979_2_alg».proof.Proof.KernelAttend
import proofs.«118425_j86809878986979_2_alg».proof.Proof.RefAttend
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel on the extended reals rewrote none of its operations. -/
theorem preserves : Cert.preserves_Kernel_KernelIdeal := trivial

/-- From arguments that agree, both programs end with the result array at `attend` of those arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.Attend.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
